-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x512 : Shape := ⟨2, ![2048, 512]⟩
abbrev S1024x512 : Shape := ⟨2, ![1024, 512]⟩
abbrev S2048x1 : Shape := ⟨2, ![2048, 1]⟩
abbrev S1x1024 : Shape := ⟨2, ![1, 1024]⟩
abbrev S2048x1024 : Shape := ⟨2, ![2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x512, .bf16⟩
  | .hbm, ⟨7, _⟩ => ⟨S8192x8192, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  iota_S2048x1024_d0_w32 : S2048x1024.Iotas .tc 32 [0]
  iota_S2048x1024_d1_w32 : S2048x1024.Iotas .tc 32 [1]
  inb_S2048x1024_S2048x1024_0_0 : ∀ a, (![0, 0] : Fin 2 → Nat) a + S2048x1024.size a ≤ S2048x1024.size a
  h_S2048x1024 : 0 < S2048x1024.numel
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x8192.size a
  hwx0_4 : ∀ i : grid0.Coords, EltTy.bits .f32 = 32 ∨ (Rect.block (s := S8192x8192) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.FrameBits.lean ====
/-
  The frame of the distance kernel's program (namespace Cert.Kernel), at any float instance: the program is six host
  operations (the squares, their row sums, the two reshapes of the sums, the narrowing of the features) and one region
  on a 4 x 8 grid.  Two of the region's input windows read ONE array (the narrowed features: row blocks of 2048 for the
  left factor, row blocks of 1024 for the right one), so the array's full share is dealt in two halves, one per window;
  the other three arrays are held whole.  The body loads its four input blocks, computes, and stores the whole output
  block; what it leaves is named (the store's payload over the four blocks), so that the run's post names the output
  array after the last write-back.
-/
import proofs.«141812_j4355096838959_2_alg».proof.Proof.Gen.Kernel.Launch
import proofs.«141812_j4355096838959_2_alg».proof.Proof.Gen.Kernel.Skeleton
import proofs.«141812_j4355096838959_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` as the region finds them: the launch contents after the six host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the index has not moved), for any proof data on the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rA : Rect S2048x512 := Rect.unit (s := S2048x512) ![0, 0] S2048x512.size inb_S2048x512_S2048x512_0_0
abbrev rB : Rect S1024x512 := Rect.unit (s := S1024x512) ![0, 0] S1024x512.size inb_S1024x512_S1024x512_0_0
abbrev rNa : Rect S2048x1 := Rect.unit (s := S2048x1) ![0, 0] S2048x1.size inb_S2048x1_S2048x1_0_0
abbrev rNb : Rect S1x1024 := Rect.unit (s := S1x1024) ![0, 0] S1x1024.size inb_S1x1024_S1x1024_0_0
abbrev rO : Rect S2048x1024 := Rect.unit (s := S2048x1024) ![0, 0] S2048x1024.size inb_S2048x1024_S2048x1024_0_0

/-- The output window's staging buffer after the body at grid coordinates `i`, from the four input blocks: its one
    store, of the payload over the four loads. -/
def outBlock (i : grid0.Coords) (x0 : Vec F S2048x512 .bf16) (x1 : Vec F S1024x512 .bf16) (x2 : Vec F S2048x1 .f32) (x3 : Vec F S1x1024 .f32) : Vec F S2048x1024 .f32 :=
  View.canon [⟨rO, k0_pay1 i (View.ld x0 rA) (View.ld x1 rB) (View.ld x2 rNa) (View.ld x3 rNb)⟩]

/-- The one store covers the buffer. -/
theorem coverO (p0 : Vec F S2048x1024 .f32) (y : S2048x1024.Idx) :
    ∃ pc ∈ ([⟨rO, p0⟩] : List (View.Piece (Elt F) S2048x1024 .f32)), y ∈ pc.1.set :=
  View.cover_of_tiled [⟨rO, p0⟩] S2048x1024.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords)
    (arg2 : Memref sig .tc .vmem S2048x512 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S1x1024 .f32) (harg5 : arg5.IsWhole)
    (arg6 : Memref sig .tc .vmem S2048x1024 .f32) (harg6 : arg6.IsWhole)
    (x0 : Vec F S2048x512 .bf16) (x1 : Vec F S1024x512 .bf16) (x2 : Vec F S2048x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0__dist_kernel i arg2 harg2 arg3 harg3 arg4 harg4 arg5 harg5 arg6 harg6) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The proof data -/

/-- The proof data of the region on core `c`: the arrays as the region finds them; after the body at point `t` each
    input's buffer at its block, the output's at `outBlock` of the input blocks; the invariant the core's scoped
    buffers that are no staging buffer (there is none); nothing owed; the two windows on the narrowed features hold
    the two halves of its share, every other input window its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outBlock (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunBits.lean ====
/-
  The run of the distance kernel's program (namespace Cert.Kernel), at any float instance: every weakly fair execution
  terminates, nothing faults, every array of the region ends at what the write-backs leave (an input array as the
  region found it, the output array overwritten block by block by what the body stored), and every other buffer as
  the region found it.  The region's launch is the one for windows that share an array: the narrowed features, held
  whole at the region's entry, are split into the two half shares the two windows on them hold.
-/
import proofs.«141812_j4355096838959_2_alg».proof.Proof.FrameBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, dealt among the windows -/

/-- The distinct buffers behind the five windows' arrays are four. -/
theorem arrImage : (Finset.univ.image (Pipeline.arrRef spec0) : Finset (Ref sig .tc)) = [main_v4, main_v2, main_v3, main_v5].toFinset := by decide

/-- Those four buffers, each whole at the full share at contents `W`, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v4) ↦{fullShare} W main_v4) ∗ (((c : Thread nD τ).loc main_v2) ↦{fullShare} W main_v2)
          ∗ (((c : Thread nD τ).loc main_v3) ↦{fullShare} W main_v3) ∗ (((c : Thread nD τ).loc main_v5) ↦{fullShare} W main_v5)) := by
  unfold Pipeline.arrBufs
  exact bigSep_eq_bigSepL_of_eq [main_v4, main_v2, main_v3, main_v5] arrImage (by decide) _

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four buffers, each whole at the full share at the entry contents, make the five windows' arrays: the narrowed
    features' full share is its left half (the row-block window) and its right half (the column-block window). -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [share0, share1, share2, share3, share4]
  rw [(arr_whole0 0).set_eq_univ, (arr_whole0 2).set_eq_univ, (arr_whole0 3).set_eq_univ, (arr_whole0 4).set_eq_univ]
  iintro ⟨H4, H2, H3, H5⟩
  ihave H4' := (pointsTo_share (PosShare.mem_left_op_right fullShare)).1 $$ H4
  icases H4' with ⟨H4a, H4b⟩
  isplitl [H4a]; · iexact H4a
  isplitl [H4b]; · iexact H4b
  isplitl [H2]; · iexact H2
  isplitl [H3]; · iexact H3
  iexact H5

/-! ## The run -/

/-- The invariant is the same at every point: the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

/-- What the run ends in: every array of the region at what the write-backs leave, every other unscoped buffer as the
    region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]
      · iempintro
      · iexact H)
    (hin := fun c => by
      rw [Phi_eq]
      iintro ⟨-, H⟩
      iexact H)
    (hout := fun c => by
      rw [Phi_eq]
      iintro H
      isplitr [H]
      · iempintro
      · iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs, and its argument array ends unchanged (no window stages it, and no host operation
    writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.Kernel.Hand

end
-- ==== Proof.FrameIdeal.lean ====
/-
  The frame of the distance kernel's program (namespace Cert.KernelIdeal), at any float instance: the program is six host
  operations (the squares, their row sums, the two reshapes of the sums, the narrowing of the features) and one region
  on a 4 x 8 grid.  Two of the region's input windows read ONE array (the narrowed features: row blocks of 2048 for the
  left factor, row blocks of 1024 for the right one), so the array's full share is dealt in two halves, one per window;
  the other three arrays are held whole.  The body loads its four input blocks, computes, and stores the whole output
  block; what it leaves is named (the store's payload over the four blocks), so that the run's post names the output
  array after the last write-back.
-/
import proofs.«141812_j4355096838959_2_alg».proof.Proof.Gen.KernelIdeal.Launch
import proofs.«141812_j4355096838959_2_alg».proof.Proof.Gen.KernelIdeal.Skeleton
import proofs.«141812_j4355096838959_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` as the region finds them: the launch contents after the six host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the index has not moved), for any proof data on the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rA : Rect S2048x512 := Rect.unit (s := S2048x512) ![0, 0] S2048x512.size inb_S2048x512_S2048x512_0_0
abbrev rB : Rect S1024x512 := Rect.unit (s := S1024x512) ![0, 0] S1024x512.size inb_S1024x512_S1024x512_0_0
abbrev rNa : Rect S2048x1 := Rect.unit (s := S2048x1) ![0, 0] S2048x1.size inb_S2048x1_S2048x1_0_0
abbrev rNb : Rect S1x1024 := Rect.unit (s := S1x1024) ![0, 0] S1x1024.size inb_S1x1024_S1x1024_0_0
abbrev rO : Rect S2048x1024 := Rect.unit (s := S2048x1024) ![0, 0] S2048x1024.size inb_S2048x1024_S2048x1024_0_0

/-- The output window's staging buffer after the body at grid coordinates `i`, from the four input blocks: its one
    store, of the payload over the four loads. -/
def outBlock (i : grid0.Coords) (x0 : Vec F S2048x512 .bf16) (x1 : Vec F S1024x512 .bf16) (x2 : Vec F S2048x1 .f32) (x3 : Vec F S1x1024 .f32) : Vec F S2048x1024 .f32 :=
  View.canon [⟨rO, k0_pay1 i (View.ld x0 rA) (View.ld x1 rB) (View.ld x2 rNa) (View.ld x3 rNb)⟩]

/-- The one store covers the buffer. -/
theorem coverO (p0 : Vec F S2048x1024 .f32) (y : S2048x1024.Idx) :
    ∃ pc ∈ ([⟨rO, p0⟩] : List (View.Piece (Elt F) S2048x1024 .f32)), y ∈ pc.1.set :=
  View.cover_of_tiled [⟨rO, p0⟩] S2048x1024.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords)
    (arg2 : Memref sig .tc .vmem S2048x512 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S1x1024 .f32) (harg5 : arg5.IsWhole)
    (arg6 : Memref sig .tc .vmem S2048x1024 .f32) (harg6 : arg6.IsWhole)
    (x0 : Vec F S2048x512 .bf16) (x1 : Vec F S1024x512 .bf16) (x2 : Vec F S2048x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0__dist_kernel i arg2 harg2 arg3 harg3 arg4 harg4 arg5 harg5 arg6 harg6) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The proof data -/

/-- The proof data of the region on core `c`: the arrays as the region finds them; after the body at point `t` each
    input's buffer at its block, the output's at `outBlock` of the input blocks; the invariant the core's scoped
    buffers that are no staging buffer (there is none); nothing owed; the two windows on the narrowed features hold
    the two halves of its share, every other input window its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outBlock (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunIdeal.lean ====
/-
  The run of the distance kernel's program (namespace Cert.KernelIdeal), at any float instance: every weakly fair execution
  terminates, nothing faults, every array of the region ends at what the write-backs leave (an input array as the
  region found it, the output array overwritten block by block by what the body stored), and every other buffer as
  the region found it.  The region's launch is the one for windows that share an array: the narrowed features, held
  whole at the region's entry, are split into the two half shares the two windows on them hold.
-/
import proofs.«141812_j4355096838959_2_alg».proof.Proof.FrameIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, dealt among the windows -/

/-- The distinct buffers behind the five windows' arrays are four. -/
theorem arrImage : (Finset.univ.image (Pipeline.arrRef spec0) : Finset (Ref sig .tc)) = [main_v4, main_v2, main_v3, main_v5].toFinset := by decide

/-- Those four buffers, each whole at the full share at contents `W`, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v4) ↦{fullShare} W main_v4) ∗ (((c : Thread nD τ).loc main_v2) ↦{fullShare} W main_v2)
          ∗ (((c : Thread nD τ).loc main_v3) ↦{fullShare} W main_v3) ∗ (((c : Thread nD τ).loc main_v5) ↦{fullShare} W main_v5)) := by
  unfold Pipeline.arrBufs
  exact bigSep_eq_bigSepL_of_eq [main_v4, main_v2, main_v3, main_v5] arrImage (by decide) _

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four buffers, each whole at the full share at the entry contents, make the five windows' arrays: the narrowed
    features' full share is its left half (the row-block window) and its right half (the column-block window). -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [share0, share1, share2, share3, share4]
  rw [(arr_whole0 0).set_eq_univ, (arr_whole0 2).set_eq_univ, (arr_whole0 3).set_eq_univ, (arr_whole0 4).set_eq_univ]
  iintro ⟨H4, H2, H3, H5⟩
  ihave H4' := (pointsTo_share (PosShare.mem_left_op_right fullShare)).1 $$ H4
  icases H4' with ⟨H4a, H4b⟩
  isplitl [H4a]; · iexact H4a
  isplitl [H4b]; · iexact H4b
  isplitl [H2]; · iexact H2
  isplitl [H3]; · iexact H3
  iexact H5

/-! ## The run -/

/-- The invariant is the same at every point: the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

/-- What the run ends in: every array of the region at what the write-backs leave, every other unscoped buffer as the
    region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]
      · iempintro
      · iexact H)
    (hin := fun c => by
      rw [Phi_eq]
      iintro ⟨-, H⟩
      iexact H)
    (hout := fun c => by
      rw [Phi_eq]
      iintro H
      isplitr [H]
      · iempintro
      · iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs, and its argument array ends unchanged (no window stages it, and no host operation
    writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.KernelIdeal.Hand

end
-- ==== Proof.Spec.lean ====
/-
  The mathematics of the pairwise-distance kernel on the extended reals.  For a matrix x of 8192 rows of 512 entries,
  normSq x r is the squared norm of row r (the sum of the squares of its entries, onto the zero the host's sum starts
  from), gram x p q the inner product of rows p and q, and

      dist x p q = -sqrt (max (normSq x p + normSq x q - 2 * gram x p q) 0),

  the negated distance of rows p and q by the expansion |a - b|^2 = |a|^2 + |b|^2 - 2 a.b.  The kernel computes
  0 - sqrt of the same clamped expression, but overwrites the clamped expression by 0 where p = q.  For a matrix of
  REAL entries that changes nothing: on the diagonal gram x p p is normSq x p, the expression is S + S - 2 S = 0, and its
  maximum with 0 is 0.  (At an infinite entry the sums are infinite, infinity minus infinity is not 0, and the two
  sides differ: the entries' finiteness is used exactly here.)
-/
import Idealize.ShloMosaic.PureOps.Ideal
import Idealize.ShloMosaic.PureOps.Ideal.Laws
import Idealize.ShloMosaic.Lib.ValueIdx

noncomputable section

namespace Cert.DistSpec

open Idealize.ShloMosaic Idealize.ShloMosaic.ValueIdx

/-- The matrix's shape and the result's. -/
abbrev SX : Shape := ⟨2, ![8192, 512]⟩
abbrev SD : Shape := ⟨2, ![8192, 8192]⟩

/-- The literals of the two programs: `+0.0` and `2.0`. -/
abbrev zero : EReal := Ideal.ofBits .f32 0x00000000#32
abbrev two : EReal := Ideal.ofBits .f32 0x40000000#32

theorem zero_eq : zero = 0 := Ideal.ofBits_zero_f32

theorem two_eq : two = ((2 : ℝ) : EReal) := by
  show Ideal.ofBits .f32 0x40000000#32 = _
  simp [Ideal.ofBits, Ideal.ieee, -EReal.coe_mul]; norm_num

/-- The squared norm of row `r`, summed onto the host sum's initial zero. -/
def normSq (x : SX.Idx → EReal) (r : Fin 8192) : EReal := zero + ∑ k : Fin 512, x (ix2 r k) * x (ix2 r k)

/-- The inner product of rows `p` and `q`. -/
def gram (x : SX.Idx → EReal) (p q : Fin 8192) : EReal := ∑ k : Fin 512, x (ix2 p k) * x (ix2 q k)

/-- The squared distance of rows `p` and `q` by the expansion, clamped at zero. -/
def clamped (x : SX.Idx → EReal) (p q : Fin 8192) : EReal := max (normSq x p + normSq x q - two * gram x p q) zero

/-- The negated distance of rows `p` and `q`, as the reference computes it. -/
def dist (x : SX.Idx → EReal) (p q : Fin 8192) : EReal := -(Ideal.sqrt (clamped x p q))

/-- The same as the kernel computes it: the clamped expression overwritten by zero on the diagonal, and the
    negation written as a difference from zero. -/
def distK (x : SX.Idx → EReal) (p q : Fin 8192) : EReal := zero - Ideal.sqrt (if p = q then zero else clamped x p q)

/-- The whole result: entry `(p, q)` is the negated distance of rows `p` and `q`. -/
def G (x : SX.Idx → EReal) : SD.Idx → EReal := fun j => dist x (j 0) (j 1)

/-- A finite sum of reals, read in the extended reals, is the sum of the readings. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- On the diagonal of a matrix of real entries the clamped expression is zero: `S + S - 2 S = 0`. -/
theorem clamped_diag (x : SX.Idx → EReal) (hfin : ∀ i, ∃ r : ℝ, x i = (r : EReal)) (p : Fin 8192) : clamped x p p = zero := by
  choose r hr using hfin
  have hs : (∑ k : Fin 512, x (ix2 p k) * x (ix2 p k)) = ((∑ k : Fin 512, r (ix2 p k) * r (ix2 p k) : ℝ) : EReal) := by
    rw [← coe_sum]
    exact Finset.sum_congr rfl fun k _ => by rw [hr, EReal.coe_mul]
  unfold clamped normSq gram
  rw [hs, zero_eq, two_eq, zero_add, ← EReal.coe_add, ← EReal.coe_mul, ← EReal.coe_sub]
  have : (∑ k : Fin 512, r (ix2 p k) * r (ix2 p k)) + (∑ k : Fin 512, r (ix2 p k) * r (ix2 p k))
      - 2 * (∑ k : Fin 512, r (ix2 p k) * r (ix2 p k)) = 0 := by ring
  rw [this, EReal.coe_zero, max_self]

/-- For a matrix of real entries the kernel's form of the distance is the reference's. -/
theorem distK_eq (x : SX.Idx → EReal) (hfin : ∀ i, ∃ r : ℝ, x i = (r : EReal)) (p q : Fin 8192) : distK x p q = dist x p q := by
  unfold distK dist
  rw [zero_eq, sub_eq_add_neg, zero_add]
  by_cases h : p = q
  · subst h
    rw [if_pos rfl, clamped_diag x hfin p, zero_eq]
  · rw [if_neg h]

end Cert.DistSpec

end
-- ==== Proof.Payload.lean ====
import proofs.«141812_j4355096838959_2_alg».proof.Proof.Gen.KernelIdeal.Skeleton
import proofs.«141812_j4355096838959_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.DistSpec
open Idealize.ShloMosaic Idealize.ShloMosaic.ValueIdx

theorem sqrt_apply {s : Shape} {φ : FTy} (x : FVec Ideal s φ) (i : s.Idx) : sqrt x i = Ideal.sqrt (x i) := rfl

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The matrix product's entry `(a, b)`: both factors are contracted over their second axis, so it is the sum over
    the 512 columns of row `a` of the left factor times row `b` of the right one. -/
theorem dot_sum (x0 : Vec Ideal S2048x512 .bf16) (x1 : Vec Ideal S1024x512 .bf16) (a : Fin 2048) (b : Fin 1024) :
    (∑ k : dot_S2048x512_S1024x512_S2048x1024_1_1_0_0_n_n.contr.Idx, x0 (dot_S2048x512_S1024x512_S2048x1024_1_1_0_0_n_n.lhsIdx (ix2 a b) k) * x1 (dot_S2048x512_S1024x512_S2048x1024_1_1_0_0_n_n.rhsIdx (ix2 a b) k))
      = ∑ k : Fin 512, x0 (ix2 a k) * x1 (ix2 b k) := by
  rw [← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 a b) ((contrEquiv1 dot_S2048x512_S1024x512_S2048x1024_1_1_0_0_n_n 512 rfl rfl).symm k) = ix2 a k := funext fun ax => Fin.ext (by
    match ax with
    | ⟨0, _⟩ =>
      show (dot_S2048x512_S1024x512_S2048x1024_1_1_0_0_n_n.lhsIdx (ix2 a b) _ 0).val = a.val
      unfold DotDims.lhsIdx
      rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
      rfl
    | ⟨1, _⟩ => exact (dot_S2048x512_S1024x512_S2048x1024_1_1_0_0_n_n.lhsIdx_val_of_single rfl _ _).trans hk)
  have er : dot_S2048x512_S1024x512_S2048x1024_1_1_0_0_n_n.rhsIdx (ix2 a b) ((contrEquiv1 dot_S2048x512_S1024x512_S2048x1024_1_1_0_0_n_n 512 rfl rfl).symm k) = ix2 b k := funext fun ax => Fin.ext (by
    match ax with
    | ⟨0, _⟩ =>
      show (dot_S2048x512_S1024x512_S2048x1024_1_1_0_0_n_n.rhsIdx (ix2 a b) _ 0).val = b.val
      unfold DotDims.rhsIdx
      rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
      rfl
    | ⟨1, _⟩ => exact (dot_S2048x512_S1024x512_S2048x1024_1_1_0_0_n_n.rhsIdx_val_of_single rfl _ _).trans hk)
  rw [el, er]

/-- The diagonal test: the two 32-bit words `i0 * 2048 + a` and `i1 * 1024 + b` (no sum wraps: all are below
    8192) are equal exactly when the global row and the global column are. -/
theorem diag_word (i0 i1 a b : ℕ) (h0 : i0 < 4) (h1 : i1 < 8) (ha : a < 2048) (hb : b < 1024) :
    (IntOp.cmpi .eq (IntOp.addi (Scalar.muli (BitVec.ofNat 32 i0) 2048#32) (BitVec.ofNat 32 a))
        (IntOp.addi (Scalar.muli (BitVec.ofNat 32 i1) 1024#32) (BitVec.ofNat 32 b)) = 1#1)
      ↔ i0 * 2048 + a = i1 * 1024 + b := by
  have e0 : IntOp.addi (Scalar.muli (BitVec.ofNat 32 i0) 2048#32) (BitVec.ofNat 32 a) = BitVec.ofNat 32 (i0 * 2048 + a) := by
    show BitVec.ofNat 32 i0 * BitVec.ofNat 32 2048 + BitVec.ofNat 32 a = _
    rw [← BitVec.ofNat_mul, ← BitVec.ofNat_add]
  have e1 : IntOp.addi (Scalar.muli (BitVec.ofNat 32 i1) 1024#32) (BitVec.ofNat 32 b) = BitVec.ofNat 32 (i1 * 1024 + b) := by
    show BitVec.ofNat 32 i1 * BitVec.ofNat 32 1024 + BitVec.ofNat 32 b = _
    rw [← BitVec.ofNat_mul, ← BitVec.ofNat_add]
  rw [e0, e1]
  show BitVec.ofBool (BitVec.ofNat 32 (i0 * 2048 + a) == BitVec.ofNat 32 (i1 * 1024 + b)) = 1#1 ↔ _
  constructor
  · intro h
    have h' : BitVec.ofNat 32 (i0 * 2048 + a) = BitVec.ofNat 32 (i1 * 1024 + b) := by
      by_contra hne
      rw [beq_eq_false_iff_ne.mpr hne] at h
      exact absurd h (by decide)
    have := congrArg BitVec.toNat h'
    rw [BitVec.toNat_ofNat, BitVec.toNat_ofNat, Nat.mod_eq_of_lt (by omega), Nat.mod_eq_of_lt (by omega)] at this
    exact this
  · intro h
    rw [h, beq_self_eq_true]
    rfl

/-- THE PAYLOAD AT AN INDEX: entry `(a, b)` of the block the body stores at grid coordinates `i` is the kernel's
    form of the distance over the four loaded blocks — the row-norm column at `a`, the row-norm row at `b`, the
    product of row `a` of the left block with row `b` of the right one, and zero in place of the clamped expression
    where the global row `i0 * 2048 + a` is the global column `i1 * 1024 + b`. -/
theorem pay_apply (i : grid0.Coords) (x0 : Vec Ideal S2048x512 .bf16) (x1 : Vec Ideal S1024x512 .bf16) (x2 : Vec Ideal S2048x1 .f32) (x3 : Vec Ideal S1x1024 .f32)
    (a : Fin 2048) (b : Fin 1024) :
    k0_pay1 (F := Ideal) i x0 x1 x2 x3 (ix2 a b)
      = zero - Ideal.sqrt (if (i 0).val * 2048 + a.val = (i 1).val * 1024 + b.val then zero
          else max (x2 (ix2 a (0 : Fin 1)) + x3 (ix2 (0 : Fin 1) b) - two * ∑ k : Fin 512, x0 (ix2 a k) * x1 (ix2 b k)) zero) := by
  unfold k0_pay1
  simp only [subf_apply, broadcast_apply, sqrt_apply, select_apply, maximumf_apply, addf_apply, mulf_apply, shapeCast_self,
    Ideal.matmul_constant_zero_apply]
  rw [dot_sum, broadcastTo_a1_ab_apply, broadcastTo_1b_ab_apply]
  have hcond : cmpi .eq (addi (broadcast S2048x1024 (Scalar.muli (BitVec.ofNat 32 (i 0).val) 2048#32)) (iota .tc S2048x1024 32 [0] iota_S2048x1024_d0_w32))
        (addi (broadcast S2048x1024 (Scalar.muli (BitVec.ofNat 32 (i 1).val) 1024#32)) (iota .tc S2048x1024 32 [1] iota_S2048x1024_d1_w32)) (ix2 a b)
      = IntOp.cmpi .eq (IntOp.addi (Scalar.muli (BitVec.ofNat 32 (i 0).val) 2048#32) (BitVec.ofNat 32 a.val))
          (IntOp.addi (Scalar.muli (BitVec.ofNat 32 (i 1).val) 1024#32) (BitVec.ofNat 32 b.val)) := by
    show IntOp.cmpi .eq (IntOp.addi (Scalar.muli (BitVec.ofNat 32 (i 0).val) 2048#32) (iota .tc S2048x1024 32 [0] iota_S2048x1024_d0_w32 (ix2 a b)))
        (IntOp.addi (Scalar.muli (BitVec.ofNat 32 (i 1).val) 1024#32) (iota .tc S2048x1024 32 [1] iota_S2048x1024_d1_w32 (ix2 a b))) = _
    rw [iota_single_apply, iota_single_apply]
  rw [hcond]
  have h0 : (i 0).val < 4 := (i 0).isLt
  have h1 : (i 1).val < 8 := (i 1).isLt
  have hd := diag_word (i 0).val (i 1).val a.val b.val h0 h1 a.isLt b.isLt
  by_cases hc : (i 0).val * 2048 + a.val = (i 1).val * 1024 + b.val
  · rw [if_pos hc]
    have hw := hd.mpr hc
    refine congrArg (fun z => zero - Ideal.sqrt z) ?_
    rw [hw]
    exact select_one _ _
  · rw [if_neg hc]
    have hw : ¬ _ := fun h => hc (hd.mp h)
    refine congrArg (fun z => zero - Ideal.sqrt z) ?_
    rw [eq_zero_of_ne_one hw]
    exact select_zero _ _

end Cert.KernelIdeal.HandValue

end
-- ==== Proof.KernelValue.lean ====
/-
  What the kernel's program leaves in its result array, on the extended reals: the negated-distance matrix of the
  argument matrix x, provided every entry of x is a real number.  The region finds three arrays the host operations
  wrote: the features narrowed (on the extended reals: x itself), and the row norms normSq x as a column and as a row.
  Grid point t = (I, J) loads rows I*2048.. of x (left factor), rows J*1024.. of x (right factor), the norms of the
  same rows, and writes block (I, J) of the result: entry (a, b) of the block is the kernel's form of the distance of
  rows p = I*2048 + a and q = J*1024 + b, which for real entries is the reference's (the diagonal law).  The 32 blocks
  tile the result, so after the last write-back the array is the whole matrix.
-/
import proofs.«141812_j4355096838959_2_alg».proof.Proof.RunIdeal
import proofs.«141812_j4355096838959_2_alg».proof.Proof.Payload
import Idealize.ShloMosaic.Lib.StableHlo.Run

set_option maxRecDepth 16384

noncomputable section

namespace Cert.KernelIdeal.HandValue

open Cert.KernelIdeal Cert.KernelIdeal.Gen Cert.KernelIdeal.Hand Cert.DistSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The narrowed features are the features: a change of format is the identity on the extended reals. -/
theorem V_v4 (c : Dev nD) : (V m c main_v4 : S8192x512.Idx → EReal) = fun i => (m ((c : Thread nD τ).loc main_arg0) : S8192x512.Idx → EReal) i := by
  dsimp only [V, hostOps0]
  after_results
  rfl

/-- The host's sum of the squares along a row, read at row `r`: the squared norm. -/
theorem sq_read (x : FVec Ideal S8192x512 .f32) (r : Fin 8192) :
    Host.reduceAdd (F := Ideal) (mulf x x) (constant S_ .f32 0x00000000#32) reducesTo_S8192x512_S8192_d1 h_S_ (ix1 r) = normSq x r := by
  simp only [Host.reduceAdd, Ideal.hostReduceAdd_def]
  rw [Ideal.hostReduceAdd_single reducesTo_S8192x512_S8192_d1 (by decide)]
  unfold normSq
  refine congrArg (_ + ·) (Finset.sum_congr rfl fun k _ => ?_)
  show mulf x x _ = mulf x x (ix2 r k)
  refine congrArg (mulf x x) (funext fun ax => Fin.ext ?_)
  match ax with
  | ⟨0, _⟩ => rfl
  | ⟨1, _⟩ => rfl

/-- The norms as a column: entry `(r, 0)` is the squared norm of row `r`. -/
theorem V_v2_apply (c : Dev nD) (r : Fin 8192) :
    (V m c main_v2 : S8192x1.Idx → EReal) (ix2 r (0 : Fin 1)) = normSq (m ((c : Thread nD τ).loc main_arg0)) r := by
  have e : (V m c main_v2 : S8192x1.Idx → EReal) = shapeCast S8192x1 (Host.reduceAdd (F := Ideal)
      (mulf (m ((c : Thread nD τ).loc main_arg0)) (m ((c : Thread nD τ).loc main_arg0))) (constant S_ .f32 0x00000000#32) reducesTo_S8192x512_S8192_d1 h_S_) shapeCasts_S8192_S8192x1 := by
    dsimp only [V, hostOps0]
    after_results
    rfl
  rw [e, shapeCast_apply _ _ (ix2 r (0 : Fin 1)) (ix1 r) (by
    rw [Shape.rowMajor_val_one, Shape.rowMajor_val_two]
    show r.val = r.val * 1 + 0
    omega)]
  exact sq_read _ r

/-- The norms as a row: entry `(0, r)` is the squared norm of row `r`. -/
theorem V_v3_apply (c : Dev nD) (r : Fin 8192) :
    (V m c main_v3 : S1x8192.Idx → EReal) (ix2 (0 : Fin 1) r) = normSq (m ((c : Thread nD τ).loc main_arg0)) r := by
  have e : (V m c main_v3 : S1x8192.Idx → EReal) = shapeCast S1x8192 (Host.reduceAdd (F := Ideal)
      (mulf (m ((c : Thread nD τ).loc main_arg0)) (m ((c : Thread nD τ).loc main_arg0))) (constant S_ .f32 0x00000000#32) reducesTo_S8192x512_S8192_d1 h_S_) shapeCasts_S8192_S1x8192 := by
    dsimp only [V, hostOps0]
    after_results
    rfl
  rw [e, shapeCast_apply _ _ (ix2 (0 : Fin 1) r) (ix1 r) (by
    rw [Shape.rowMajor_val_one, Shape.rowMajor_val_two]
    show r.val = 0 * 8192 + r.val
    omega)]
  exact sq_read _ r

/-! ## The schedule: which block each window is on at a point -/

theorem hz : (![0, 0] : Fin 2 → Nat) = fun _ => 0 := funext fun a => by fin_cases a <;> rfl

/-- At point `t = (I, J)`: the left factor and the norm column are on row block `I`, the right factor and the norm
    row on block `J`, the result on block `(I, J)`. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = (grid0.coords t 1).val
    ∧ win0_4.index t (0 : Fin 2) = (grid0.coords t 0).val ∧ win0_4.index t (1 : Fin 2) = (grid0.coords t 1).val :=
  (by decide +kernel : ∀ t : Fin grid0.N, _)

/-- Every block of the result is some point's. -/
theorem idx_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-! ## What a point writes back -/

/-- Point `t` writes back block `t` of the negated-distance matrix of the argument matrix, when its entries are real. -/
theorem flushed_eq (c : Dev nD) (hfin : ∀ i, ∃ r : ℝ, (m ((c : Thread nD τ).loc main_arg0) : SX.Idx → EReal) i = (r : EReal)) (t : Fin cfg0.N) :
    (dats m 0 c).flushed 4 t = ((cfg0.win 4).blk t).view.read (Elt Ideal) (G (m ((c : Thread nD τ).loc main_arg0))) := by
  show (cfg0.win 4).cut (grid0.coords t) ((dats m 0 c).after 4 t) = _
  rw [after0_4]
  unfold outBlock
  rw [View.canon_unit_zero hz]
  simp only [View.ld_unit_zero (S := S2048x512) hz, View.ld_unit_zero (S := S1024x512) hz, View.ld_unit_zero (S := S2048x1) hz,
    View.ld_unit_zero (S := S1x1024) hz]
  obtain ⟨e00, e01, e10, e11, e20, e21, e30, e31, e40, e41⟩ := idx_facts t
  have hI : (grid0.coords t 0).val < 4 := (grid0.coords t 0).isLt
  have hJ : (grid0.coords t 1).val < 8 := (grid0.coords t 1).isLt
  funext j
  obtain ⟨a, b, rfl⟩ : ∃ (a : Fin 2048) (b : Fin 1024), j = ix2 a b := ⟨j 0, j 1, eq_ix2 j⟩
  show k0_pay1 (grid0.coords t) (iblk m c 0 t) (iblk m c 1 t) (iblk m c 2 t) (iblk m c 3 t) (ix2 a b)
    = G (m ((c : Thread nD τ).loc main_arg0)) (((cfg0.win 4).blk t).view.emb (ix2 a b))
  refine (pay_apply (grid0.coords t) (iblk m c 0 t) (iblk m c 1 t) (iblk m c 2 t) (iblk m c 3 t) a b).trans ?_
  -- the global row and column of the entry
  have hp : (grid0.coords t 0).val * 2048 + a.val < 8192 := by have := a.isLt; omega
  have hq : (grid0.coords t 1).val * 1024 + b.val < 8192 := by have := b.isLt; omega
  have r0 : ∀ k : Fin 512, iblk m c 0 t (ix2 a k)
      = (m ((c : Thread nD τ).loc main_arg0) : SX.Idx → EReal) (ix2 ⟨(grid0.coords t 0).val * 2048 + a.val, hp⟩ k) := fun k => by
    show (V m c main_v4 : S8192x512.Idx → EReal) (((cfg0.win 0).blk t).view.emb (ix2 a k)) = _
    refine (congrFun (V_v4 m c) _).trans (congrArg (m ((c : Thread nD τ).loc main_arg0) : SX.Idx → EReal) ?_)
    funext ax; apply Fin.ext
    match ax with
    | ⟨0, _⟩ => show win0_0.index t (0 : Fin 2) * 2048 + 1 * a.val = (grid0.coords t 0).val * 2048 + a.val; omega
    | ⟨1, _⟩ => show win0_0.index t (1 : Fin 2) * 512 + 1 * k.val = k.val; omega
  have r1 : ∀ k : Fin 512, iblk m c 1 t (ix2 b k)
      = (m ((c : Thread nD τ).loc main_arg0) : SX.Idx → EReal) (ix2 ⟨(grid0.coords t 1).val * 1024 + b.val, hq⟩ k) := fun k => by
    show (V m c main_v4 : S8192x512.Idx → EReal) (((cfg0.win 1).blk t).view.emb (ix2 b k)) = _
    refine (congrFun (V_v4 m c) _).trans (congrArg (m ((c : Thread nD τ).loc main_arg0) : SX.Idx → EReal) ?_)
    funext ax; apply Fin.ext
    match ax with
    | ⟨0, _⟩ => show win0_1.index t (0 : Fin 2) * 1024 + 1 * b.val = (grid0.coords t 1).val * 1024 + b.val; omega
    | ⟨1, _⟩ => show win0_1.index t (1 : Fin 2) * 512 + 1 * k.val = k.val; omega
  have r2 : iblk m c 2 t (ix2 a (0 : Fin 1)) = normSq (m ((c : Thread nD τ).loc main_arg0)) ⟨(grid0.coords t 0).val * 2048 + a.val, hp⟩ := by
    show (V m c main_v2 : S8192x1.Idx → EReal) (((cfg0.win 2).blk t).view.emb (ix2 a (0 : Fin 1))) = _
    refine (congrArg (V m c main_v2 : S8192x1.Idx → EReal) ?_).trans (V_v2_apply m c _)
    funext ax; apply Fin.ext
    match ax with
    | ⟨0, _⟩ => show win0_2.index t (0 : Fin 2) * 2048 + 1 * a.val = (grid0.coords t 0).val * 2048 + a.val; omega
    | ⟨1, _⟩ => show win0_2.index t (1 : Fin 2) * 1 + 1 * 0 = 0; omega
  have r3 : iblk m c 3 t (ix2 (0 : Fin 1) b) = normSq (m ((c : Thread nD τ).loc main_arg0)) ⟨(grid0.coords t 1).val * 1024 + b.val, hq⟩ := by
    show (V m c main_v3 : S1x8192.Idx → EReal) (((cfg0.win 3).blk t).view.emb (ix2 (0 : Fin 1) b)) = _
    refine (congrArg (V m c main_v3 : S1x8192.Idx → EReal) ?_).trans (V_v3_apply m c _)
    funext ax; apply Fin.ext
    match ax with
    | ⟨0, _⟩ => show win0_3.index t (0 : Fin 2) * 1 + 1 * 0 = 0; omega
    | ⟨1, _⟩ => show win0_3.index t (1 : Fin 2) * 1024 + 1 * b.val = (grid0.coords t 1).val * 1024 + b.val; omega
  have r4 : ((cfg0.win 4).blk t).view.emb (ix2 a b)
      = (ix2 ⟨(grid0.coords t 0).val * 2048 + a.val, hp⟩ ⟨(grid0.coords t 1).val * 1024 + b.val, hq⟩ : SD.Idx) := by
    funext ax; apply Fin.ext
    match ax with
    | ⟨0, _⟩ => show win0_4.index t (0 : Fin 2) * 2048 + 1 * a.val = (grid0.coords t 0).val * 2048 + a.val; omega
    | ⟨1, _⟩ => show win0_4.index t (1 : Fin 2) * 1024 + 1 * b.val = (grid0.coords t 1).val * 1024 + b.val; omega
  rw [r2, r3, r4]
  simp only [r0, r1]
  refine Eq.trans ?_ (distK_eq (m ((c : Thread nD τ).loc main_arg0)) hfin ⟨(grid0.coords t 0).val * 2048 + a.val, hp⟩ ⟨(grid0.coords t 1).val * 1024 + b.val, hq⟩)
  unfold distK clamped gram
  exact congrArg (fun z => zero - Ideal.sqrt z) (if_congr ⟨fun h => Fin.ext h, fun h => congrArg Fin.val h⟩ rfl rfl)

/-! ## The blocks tile the result -/

theorem mem_blk (t : Fin cfg0.N) (i : S8192x8192.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v5).slice (win0_4.rect t)).set ↔ _
  rw [View.set_slice_whole, Rect.mem_set_unit]
  exact Iff.rfl

/-- Entry `(p, q)` of the result is in the block of the point `(p / 2048, q / 1024)`. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win0_4.index t (0 : Fin 2) = (i 0).val / 2048 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

/-- The result array after the last write-back is the negated-distance matrix. -/
theorem final (c : Dev nD) (hfin : ∀ i, ∃ r : ℝ, (m ((c : Thread nD τ).loc main_arg0) : SX.Idx → EReal) i = (r : EReal)) :
    (dats m 0 c).arrAt 4 cfg0.N = G (m ((c : Thread nD τ).loc main_arg0)) :=
  (dats m 0 c).arrAt_eq_of_cover 4 (G (m ((c : Thread nD τ).loc main_arg0))) (fun t _ => flushed_eq m c hfin t) cover

/-! ## The run, read -/

/-- From a memory whose argument matrix has real entries, every weakly fair execution of the kernel's program ends with
    the result array at the negated-distance matrix of the argument, the argument unchanged. -/
theorem run (hfin : ∀ (c : Dev nD) i, ∃ r : ℝ, (m ((c : Thread nD τ).loc main_arg0) : SX.Idx → EReal) i = (r : EReal)) :
    θ_run defs (onTc (τ := τ) (main (F := Ideal))) ⟨m, fun _ => 0, ρ⟩ fun r => ∀ c : Dev nD,
      r.2.mem ((c : Thread nD τ).loc main_v5) = G (m ((c : Thread nD τ).loc main_arg0))
      ∧ r.2.mem ((c : Thread nD τ).loc main_arg0) = m ((c : Thread nD τ).loc main_arg0) :=
  (θ_run defs _ _).mono (fun r h c => ⟨((h c).1 4).trans (final m c (hfin c)),
      ((h c).2 main_arg0 (Pipeline.mem_restRefs_of main_arg0 (by decide) (by decide))).trans (V_main_arg0 m c)⟩)
    (run_main m ρ)

end Cert.KernelIdeal.HandValue

end
-- ==== Proof.RefValue.lean ====
/-
  The reference computes the negated-distance matrix: read one operation at a time at an index (p, q), its result is
  -sqrt (max (sq x p + sq x q - 2 * gram x p q) 0) of the argument matrix x — the row sums of the squares broadcast
  along rows and along columns, the product of x with its transpose a sum over the 512 columns of x (p, k) * x (q, k).
-/
import proofs.«141812_j4355096838959_2_alg».proof.Proof.Gen.ReferenceIdeal.Read
import proofs.«141812_j4355096838959_2_alg».proof.Proof.Spec

noncomputable section

namespace Cert.ReferenceIdeal.RefValue

open Cert.ReferenceIdeal Cert.ReferenceIdeal.Read Cert.DistSpec
open Idealize.ShloMosaic Idealize.ShloMosaic.ValueIdx

/-- The reference's result, as a function of the argument matrix, is the negated-distance matrix. -/
theorem ref_eq (x0 : (⟨S8192x512, .f32⟩ : BufTy).Contents (Elt Ideal)) : val_main_v15 (F := Ideal) x0 = G x0 := by
  funext i
  obtain ⟨p, q, rfl⟩ : ∃ (p : Fin 8192) (q : Fin 8192), i = ix2 p q := ⟨i 0, i 1, eq_ix2 i⟩
  have e1 : ∀ k : Fin 512, idx_main_v1 (idx_main_v4 (idx_main_v6 (ix2 p q))) k = ix2 p k :=
    fun k => funext fun a => Fin.ext (by match a with | ⟨0, _⟩ => rfl | ⟨1, _⟩ => rfl)
  have e2 : ∀ k : Fin 512, idx_main_v1 (idx_main_v5 (idx_main_v7 (ix2 p q))) k = ix2 q k :=
    fun k => funext fun a => Fin.ext (by match a with | ⟨0, _⟩ => rfl | ⟨1, _⟩ => rfl)
  have e3 : ∀ k : Fin 512, lidx_main_v3 (ix2 p q) k = ix2 p k :=
    fun k => funext fun a => Fin.ext (by match a with | ⟨0, _⟩ => rfl | ⟨1, _⟩ => rfl)
  have e4 : ∀ k : Fin 512, idx_main_v2 (ridx_main_v3 (ix2 p q) k) = ix2 q k :=
    fun k => funext fun a => Fin.ext (by match a with | ⟨0, _⟩ => rfl | ⟨1, _⟩ => rfl)
  rw [val_main_v15_apply, val_main_v14_apply, val_main_v13_apply, val_main_v11_apply, val_main_v8_apply, val_main_v10_apply,
    val_main_v6_apply, val_main_v7_apply, val_main_v4_apply, val_main_v5_apply, val_main_v12_apply, val_main_v9_apply,
    val_main_cst_1_apply, val_main_cst_0_apply, val_main_v3_apply, val_main_v1_apply, val_main_v1_apply]
  simp only [val_main_v0_apply, val_main_v2_apply, val_main_cst_apply, e1, e2, e3, e4,
    Ideal.hostNegf_def, Ideal.negf_def, Ideal.hostUnary_sqrt_def, Ideal.maximumf_def, Ideal.subf_def, Ideal.addf_def,
    Ideal.mulf_def, Ideal.ofBits_def]
  rfl

end Cert.ReferenceIdeal.RefValue

end
-- ==== Proof.Finite.lean ====
/-
  The precondition read back: a matrix of which the printed predicate "every |x| < +inf" holds has real entries.
  The predicate is a reduction by "and", from 1, of the element tests |x| < +inf over all entries into one word; if
  that word is 1, every test is 1; and an extended real whose absolute value max x (-x) is below +inf is neither
  infinity, so it is a real.
-/
import proofs.«141812_j4355096838959_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic

/-- The scalar shape has one index. -/
instance : Subsingleton Cert.Pre_finite_inputs.S_.Idx := ⟨fun a b => funext fun d => d.elim0⟩

/-- The pattern of +inf denotes the top of the extended reals. -/
theorem ofBits_inf : Ideal.ofBits .f32 0x7F800000#32 = (⊤ : EReal) := by
  simp [Ideal.ofBits, Ideal.ieee]

/-- An extended real whose absolute value tests below +inf is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exfalso; simp [Ideal.cmp] at h
  | coe r => exact ⟨r, rfl⟩
  | top => exfalso; simp [Ideal.cmp] at h

/-- A matrix of which the printed predicate holds has real entries. -/
theorem finite_of_pre [Cert.Pre_finite_inputs.Facts] (x : FVec Ideal Cert.Pre_finite_inputs.S8192x512 .f32)
    (h : Cert.Pre_finite_inputs.fn (F := Ideal) x = fun _ => 1#1) (i : Cert.Pre_finite_inputs.S8192x512.Idx) :
    ∃ r : ℝ, x i = (r : EReal) := by
  have h0 := congrFun h ValueIdx.ix0
  dsimp only [Cert.Pre_finite_inputs.fn] at h0
  have hi := Host.reduce_andi_all _ _ _ _ _ h0 i
  exact real_of_abs_lt (x i) hi

end Cert.Finite

end
-- ==== Proof.lean ====
/-
  The pairwise-distance kernel against its reference, on the extended reals.

  Both programs compute, for a matrix x of 8192 rows of 512 entries, the matrix of negated distances
      -sqrt (max (|x_p|^2 + |x_q|^2 - 2 x_p . x_q) 0).
  The reference takes the row norms, the product of x with its transpose, and combines them entry by entry.  The
  kernel takes the row norms on the host, narrows x (the identity on the extended reals), and on a 4 x 8 grid computes
  each 2048 x 1024 block of the result from two row blocks of x and the norms of their rows; it also overwrites the
  clamped expression by 0 where the global row equals the global column.  For REAL entries that overwrite changes
  nothing — on the diagonal the expression is S + S - 2 S = 0 —, which is where the precondition (every entry finite)
  is used; the kernel's negation 0 - y is -y.

  The three frames: each kernel program is its host operations and one region whose two feature windows share one
  array (its share dealt in halves); the reference is a line of host operations.  The idealized kernel is the kernel's
  own text read on the extended reals (no rewrite), so there is nothing to preserve.
-/
import proofs.«141812_j4355096838959_2_alg».proof.Defs
import proofs.«141812_j4355096838959_2_alg».proof.Proof.Gen.Kernel
import proofs.«141812_j4355096838959_2_alg».proof.Proof.Gen.KernelIdeal
import proofs.«141812_j4355096838959_2_alg».proof.Proof.Gen.ReferenceIdeal
import proofs.«141812_j4355096838959_2_alg».proof.Proof.Gen.ReferenceIdeal.Run
import proofs.«141812_j4355096838959_2_alg».proof.Proof.Gen.ReferenceIdeal.Read
import proofs.«141812_j4355096838959_2_alg».proof.Proof.Gen.Pre_finite_inputs
import proofs.«141812_j4355096838959_2_alg».proof.Proof.RunBits
import proofs.«141812_j4355096838959_2_alg».proof.Proof.RunIdeal
import proofs.«141812_j4355096838959_2_alg».proof.Proof.KernelValue
import proofs.«141812_j4355096838959_2_alg».proof.Proof.RefValue
import proofs.«141812_j4355096838959_2_alg».proof.Proof.Finite

noncomputable section

namespace Cert.Proof

open Idealize.ShloMosaic Idealize.ShloMosaic.TcCoe Idealize.SL.Sem

/-- The kernel's program, as printed, runs and leaves its argument unchanged. -/
theorem frame_kernel : Cert.frame_Kernel := fun m ρ _ => Cert.Kernel.Hand.frame m ρ

/-- So does it read on the extended reals. -/
theorem frame_kernelIdeal : Cert.frame_KernelIdeal := fun m ρ _ => Cert.KernelIdeal.Hand.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument matrix, whose entries the precondition makes real, both programs end with
    the negated-distance matrix of that argument. -/
theorem algebraic : Cert.algebraic_KernelIdeal_ReferenceIdeal := by
  intro m ρ m' ρ' hpre hagree
  have hfin : ∀ (c : Dev Cert.KernelIdeal.nD) i, ∃ r : ℝ,
      (m ((c : Thread Cert.KernelIdeal.nD Cert.KernelIdeal.τ).loc Cert.KernelIdeal.main_arg0) : Cert.DistSpec.SX.Idx → EReal) i = (r : EReal) :=
    fun c i => Cert.Finite.finite_of_pre _ (hpre c) i
  refine ⟨fun c => Cert.DistSpec.G (m ((c : Thread Cert.KernelIdeal.nD Cert.KernelIdeal.τ).loc Cert.KernelIdeal.main_arg0)),
    Cert.KernelIdeal.HandValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
